-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256 : Shape := ⟨2, ![8, 256]⟩
abbrev S128x128x256 : Shape := ⟨3, ![128, 128, 256]⟩
abbrev S128x128x8x256 : Shape := ⟨4, ![128, 128, 8, 256]⟩
abbrev S8 : Shape := ⟨1, ![8]⟩
abbrev S50000x256 : Shape := ⟨2, ![50000, 256]⟩
abbrev S8x1 : Shape := ⟨2, ![8, 1]⟩
abbrev S_ : Shape := ⟨0, ![]⟩

class Facts : Prop where
  bcast_S_S128x128x256 : S_.BroadcastsInDim S128x128x256 (![] : Fin 0 → Fin S128x128x256.rank)
  reducesTo_S128x128x256_S_d0_1_2 : S128x128x256.ReducesTo [0, 1, 2] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S8x1 : S_.BroadcastsInDim S8x1 (![] : Fin 0 → Fin S8x1.rank)
  reducesTo_S8x1_S_d0_1 : S8x1.ReducesTo [0, 1] S_

variable [Facts]

def fn {F : FTy → Type} [FloatOps F] (main_arg0 : IVec S8x256 32) (main_arg1 : FVec F S128x128x256 .f32) (main_arg2 : IVec S128x128x8x256 32) (main_arg3 : IVec S8 32) (main_arg4 : FVec F S50000x256 .f32) (main_arg5 : FVec F S8x1 .f32) : IVec S_ 1 :=
  let main_v0 : FVec F S128x128x256 .f32 := Host.absf main_arg1
  let main_cst : FVec F S_ .f32 := constant S_ .f32 0x7F800000#32
  let main_v1 : FVec F S128x128x256 .f32 := broadcastInDim S128x128x256 ![] bcast_S_S128x128x256 main_cst
  let main_v2 : IVec S128x128x256 1 := cmpf .olt main_v0 main_v1
  let main_c : IVec S_ 1 := constantI S_ 1 1#1
  let main_v3 : IVec S_ 1 := (fun x v => Host.reduce IntOp.andi x v reducesTo_S128x128x256_S_d0_1_2 h_S_) main_v2 main_c
  let main_v4 : FVec F S50000x256 .f32 := Host.absf main_arg4
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S8x1 .f32 := Host.absf main_arg5
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  main_v13
-- ==== Kernel.lean ====
abbrev S8x256 : Shape := ⟨2, ![8, 256]⟩
abbrev S128x128x256 : Shape := ⟨3, ![128, 128, 256]⟩
abbrev S128x128x8x256 : Shape := ⟨4, ![128, 128, 8, 256]⟩
abbrev S8 : Shape := ⟨1, ![8]⟩
abbrev S50000x256 : Shape := ⟨2, ![50000, 256]⟩
abbrev S8x1 : Shape := ⟨2, ![8, 1]⟩
abbrev S_ : Shape := ⟨0, ![]⟩
abbrev S8x256x1 : Shape := ⟨3, ![8, 256, 1]⟩
abbrev S8x256x256 : Shape := ⟨3, ![8, 256, 256]⟩
abbrev S1 : Shape := ⟨1, ![1]⟩
abbrev S1x1 : Shape := ⟨2, ![1, 1]⟩
abbrev S8x1x1 : Shape := ⟨3, ![8, 1, 1]⟩
abbrev S16384x256 : Shape := ⟨2, ![16384, 256]⟩
abbrev S16384x2048 : Shape := ⟨2, ![16384, 2048]⟩
abbrev S2048x256 : Shape := ⟨2, ![2048, 256]⟩
abbrev S512x256 : Shape := ⟨2, ![512, 256]⟩
abbrev S512x2048 : Shape := ⟨2, ![512, 2048]⟩
abbrev S256x2048 : Shape := ⟨2, ![256, 2048]⟩
abbrev S512 : Shape := ⟨1, ![512]⟩
abbrev S512x1 : Shape := ⟨2, ![512, 1]⟩
abbrev S256x256 : Shape := ⟨2, ![256, 256]⟩
abbrev S1x1x1 : Shape := ⟨3, ![1, 1, 1]⟩
abbrev S128x128x2048 : Shape := ⟨3, ![128, 128, 2048]⟩

abbrev nBuf : Space → Nat
  | .hbm => 46
  | .vmem => 8
  | .smem => 0
  | _ => 0

abbrev bufTy : (tb : Table) → Fin (tcTables nBuf tb) → BufTy
  | .hbm, ⟨0, _⟩ => ⟨S8x256, .i32⟩
  | .hbm, ⟨1, _⟩ => ⟨S128x128x256, .f32⟩
  | .hbm, ⟨2, _⟩ => ⟨S128x128x8x256, .i32⟩
  | .hbm, ⟨3, _⟩ => ⟨S8, .i32⟩
  | .hbm, ⟨4, _⟩ => ⟨S50000x256, .f32⟩
  | .hbm, ⟨5, _⟩ => ⟨S8x1, .f32⟩
  | .hbm, ⟨6, _⟩ => ⟨S_, .i32⟩
  | .hbm, ⟨7, _⟩ => ⟨S8x256, .i32⟩
  | .hbm, ⟨8, _⟩ => ⟨S8x256, .i1⟩
  | .hbm, ⟨9, _⟩ => ⟨S_, .i32⟩
  | .hbm, ⟨10, _⟩ => ⟨S8x256, .i32⟩
  | .hbm, ⟨11, _⟩ => ⟨S8x256, .i32⟩
  | .hbm, ⟨12, _⟩ => ⟨S8x256, .i32⟩
  | .hbm, ⟨13, _⟩ => ⟨S8x256x1, .i32⟩
  | .hbm, ⟨14, _⟩ => ⟨S8x256x256, .f32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8x1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1x1, .f32⟩
  | .hbm, ⟨30, _⟩ => ⟨S8x1, .f32⟩
  | .hbm, ⟨31, _⟩ => ⟨S8x1, .f32⟩
  | .hbm, ⟨32, _⟩ => ⟨S8x1, .f32⟩
  | .hbm, ⟨33, _⟩ => ⟨S_, .f32⟩
  | .hbm, ⟨34, _⟩ => ⟨S1, .f32⟩
  | .hbm, ⟨35, _⟩ => ⟨S1x1, .f32⟩
  | .hbm, ⟨36, _⟩ => ⟨S8x1, .f32⟩
  | .hbm, ⟨37, _⟩ => ⟨S8x1, .f32⟩
  | .hbm, ⟨38, _⟩ => ⟨S8x1x1, .f32⟩
  | .hbm, ⟨39, _⟩ => ⟨S16384x256, .f32⟩
  | .hbm, ⟨40, _⟩ => ⟨S16384x256, .bf16⟩
  | .hbm, ⟨41, _⟩ => ⟨S16384x2048, .i32⟩
  | .hbm, ⟨42, _⟩ => ⟨S2048x256, .f32⟩
  | .hbm, ⟨43, _⟩ => ⟨S2048x256, .bf16⟩
  | .hbm, ⟨44, _⟩ => ⟨S16384x2048, .f32⟩
  | .hbm, ⟨45, _⟩ => ⟨S128x128x2048, .f32⟩
  | .local _ .vmem, ⟨0, _⟩ => ⟨S512x256, .bf16⟩
  | .local _ .vmem, ⟨1, _⟩ => ⟨S512x256, .bf16⟩
  | .local _ .vmem, ⟨2, _⟩ => ⟨S512x2048, .i32⟩
  | .local _ .vmem, ⟨3, _⟩ => ⟨S512x2048, .i32⟩
  | .local _ .vmem, ⟨4, _⟩ => ⟨S2048x256, .bf16⟩
  | .local _ .vmem, ⟨5, _⟩ => ⟨S8x1x1, .f32⟩
  | .local _ .vmem, ⟨6, _⟩ => ⟨S512x2048, .f32⟩
  | .local _ .vmem, ⟨7, _⟩ => ⟨S512x2048, .f32⟩
  | _, _ => ⟨S8x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S_S8 : S_.BroadcastsInDim S8 (![] : Fin 0 → Fin S8.rank)
  bcast_S8_S8x1_0 : S8.BroadcastsInDim S8x1 (![0] : Fin 1 → Fin S8x1.rank)
  reducesTo_S8x1_S1_d0 : S8x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  shapeCasts_S8x1_S8x1x1 : S8x1.ShapeCasts S8x1x1
  shapeCasts_S128x128x256_S16384x256 : S128x128x256.ShapeCasts S16384x256
  bitsLt_bf16_f32 : FTy.bits .bf16 < FTy.bits .f32
  shapeCasts_S128x128x8x256_S16384x2048 : S128x128x8x256.ShapeCasts S16384x2048
  shapeCasts_S8x256x256_S2048x256 : S8x256x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  transposes_S2048x256_p1_0_S256x2048 : S2048x256.Transposes [1, 0] S256x2048
  slices_S512x2048_o0_0_S512x256 : S512x2048.Slices ![0, 0] S512x256
  inb_S512x2048_S512x256_0_0 : ∀ a, (![0, 0] : Fin 2 → Nat) a + S512x256.size a ≤ S512x2048.size a
  reduces_S512x256_S512 : S512x256.Reduces [1] S512
  shapeCasts_S512_S512x1 : S512.ShapeCasts S512x1
  broadcasts_S512x1_S512x256 : S512x1.Broadcasts S512x256
  slices_S2048x256_o0_0_S256x256 : S2048x256.Slices ![0, 0] S256x256
  slices_S8x1x1_o0_0_0_S1x1x1 : S8x1x1.Slices ![0, 0, 0] S1x1x1
  inpos_S1x1x1_p0_0_0 : ∀ a, (![0, 0, 0] : Fin 3 → Nat) a < S1x1x1.size a
  slices_S512x2048_o0_256_S512x256 : S512x2048.Slices ![0, 256] S512x256
  inb_S512x2048_S512x256_0_256 : ∀ a, (![0, 256] : Fin 2 → Nat) a + S512x256.size a ≤ S512x2048.size a
  slices_S2048x256_o256_0_S256x256 : S2048x256.Slices ![256, 0] S256x256
  slices_S8x1x1_o1_0_0_S1x1x1 : S8x1x1.Slices ![1, 0, 0] S1x1x1
  slices_S512x2048_o0_512_S512x256 : S512x2048.Slices ![0, 512] S512x256
  inb_S512x2048_S512x256_0_512 : ∀ a, (![0, 512] : Fin 2 → Nat) a + S512x256.size a ≤ S512x2048.size a
  slices_S2048x256_o512_0_S256x256 : S2048x256.Slices ![512, 0] S256x256
  slices_S8x1x1_o2_0_0_S1x1x1 : S8x1x1.Slices ![2, 0, 0] S1x1x1
  slices_S512x2048_o0_768_S512x256 : S512x2048.Slices ![0, 768] S512x256
  inb_S512x2048_S512x256_0_768 : ∀ a, (![0, 768] : Fin 2 → Nat) a + S512x256.size a ≤ S512x2048.size a
  slices_S2048x256_o768_0_S256x256 : S2048x256.Slices ![768, 0] S256x256
  slices_S8x1x1_o3_0_0_S1x1x1 : S8x1x1.Slices ![3, 0, 0] S1x1x1
  slices_S512x2048_o0_1024_S512x256 : S512x2048.Slices ![0, 1024] S512x256
  inb_S512x2048_S512x256_0_1024 : ∀ a, (![0, 1024] : Fin 2 → Nat) a + S512x256.size a ≤ S512x2048.size a
  slices_S2048x256_o1024_0_S256x256 : S2048x256.Slices ![1024, 0] S256x256
  slices_S8x1x1_o4_0_0_S1x1x1 : S8x1x1.Slices ![4, 0, 0] S1x1x1
  slices_S512x2048_o0_1280_S512x256 : S512x2048.Slices ![0, 1280] S512x256
  inb_S512x2048_S512x256_0_1280 : ∀ a, (![0, 1280] : Fin 2 → Nat) a + S512x256.size a ≤ S512x2048.size a
  slices_S2048x256_o1280_0_S256x256 : S2048x256.Slices ![1280, 0] S256x256
  slices_S8x1x1_o5_0_0_S1x1x1 : S8x1x1.Slices ![5, 0, 0] S1x1x1
  slices_S512x2048_o0_1536_S512x256 : S512x2048.Slices ![0, 1536] S512x256
  inb_S512x2048_S512x256_0_1536 : ∀ a, (![0, 1536] : Fin 2 → Nat) a + S512x256.size a ≤ S512x2048.size a
  slices_S2048x256_o1536_0_S256x256 : S2048x256.Slices ![1536, 0] S256x256
  slices_S8x1x1_o6_0_0_S1x1x1 : S8x1x1.Slices ![6, 0, 0] S1x1x1
  slices_S512x2048_o0_1792_S512x256 : S512x2048.Slices ![0, 1792] S512x256
  inb_S512x2048_S512x256_0_1792 : ∀ a, (![0, 1792] : Fin 2 → Nat) a + S512x256.size a ≤ S512x2048.size a
  slices_S2048x256_o1792_0_S256x256 : S2048x256.Slices ![1792, 0] S256x256
  slices_S8x1x1_o7_0_0_S1x1x1 : S8x1x1.Slices ![7, 0, 0] S1x1x1
  shapeCasts_S16384x2048_S128x128x2048 : S16384x2048.ShapeCasts S128x128x2048
  gather_S50000x256_S8x256x1_S8x256x256_2_0_n_n_0_2_1256_wf : GatherDims.WF S50000x256 S8x256x1 S8x256x256 [2] [0] [] [0] [] 2 ![1, 256]
  gather_S8x1_S8x1_S8x1_1_0_n_n_0_1_11_wf : GatherDims.WF S8x1 S8x1 S8x1 [1] [0] [] [0] [] 1 ![1, 1]
  dot_S512x256_S256x2048_S512x2048_1_0_0_1_n_n_wf : DotDims.WF S512x256 S256x2048 S512x2048 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .bf16 = 32 ∨ (Rect.block (s := S16384x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .i32 = 32 ∨ (Rect.block (s := S16384x2048) S512x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1x1.size a ≤ S8x1x1.size a
  hwx0_3 : ∀ i : grid0.Coords, EltTy.bits .f32 = 32 ∨ (Rect.block (s := S8x1x1) S8x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def gather_S50000x256_S8x256x1_S8x256x256_2_0_n_n_0_2_1256 : GatherDims S50000x256 S8x256x1 S8x256x256 where
  offsetDims := [2]
  collapsedSliceDims := [0]
  operandBatchingDims := []
  startIndicesBatchingDims := []
  startIndexMap := [0]
  indexVectorDim := 2
  sliceSizes := ![1, 256]
  wf := gather_S50000x256_S8x256x1_S8x256x256_2_0_n_n_0_2_1256_wf
def gather_S8x1_S8x1_S8x1_1_0_n_n_0_1_11 : GatherDims S8x1 S8x1 S8x1 where
  offsetDims := [1]
  collapsedSliceDims := [0]
  operandBatchingDims := []
  startIndicesBatchingDims := []
  startIndexMap := [0]
  indexVectorDim := 1
  sliceSizes := ![1, 1]
  wf := gather_S8x1_S8x1_S8x1_1_0_n_n_0_1_11_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v27) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256 : Shape := ⟨2, ![8, 256]⟩
abbrev S128x128x256 : Shape := ⟨3, ![128, 128, 256]⟩
abbrev S128x128x8x256 : Shape := ⟨4, ![128, 128, 8, 256]⟩
abbrev S8 : Shape := ⟨1, ![8]⟩
abbrev S50000x256 : Shape := ⟨2, ![50000, 256]⟩
abbrev S8x1 : Shape := ⟨2, ![8, 1]⟩
abbrev S_ : Shape := ⟨0, ![]⟩
abbrev S8x256x1 : Shape := ⟨3, ![8, 256, 1]⟩
abbrev S8x256x256 : Shape := ⟨3, ![8, 256, 256]⟩
abbrev S16384x256 : Shape := ⟨2, ![16384, 256]⟩
abbrev S8x256x16384 : Shape := ⟨3, ![8, 256, 16384]⟩
abbrev S16384x8x256 : Shape := ⟨3, ![16384, 8, 256]⟩
abbrev S16384x8 : Shape := ⟨2, ![16384, 8]⟩
abbrev S16384x8x1 : Shape := ⟨3, ![16384, 8, 1]⟩
abbrev S8x16384x256 : Shape := ⟨3, ![8, 16384, 256]⟩
abbrev S1 : Shape := ⟨1, ![1]⟩
abbrev S1x1 : Shape := ⟨2, ![1, 1]⟩
abbrev S8x1x1 : Shape := ⟨3, ![8, 1, 1]⟩
abbrev S128x128x2048 : Shape := ⟨3, ![128, 128, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8x256, .i32⟩
  | .hbm, ⟨1, _⟩ => ⟨S128x128x256, .f32⟩
  | .hbm, ⟨2, _⟩ => ⟨S128x128x8x256, .i32⟩
  | .hbm, ⟨3, _⟩ => ⟨S8, .i32⟩
  | .hbm, ⟨4, _⟩ => ⟨S50000x256, .f32⟩
  | .hbm, ⟨5, _⟩ => ⟨S8x1, .f32⟩
  | .hbm, ⟨6, _⟩ => ⟨S_, .i32⟩
  | .hbm, ⟨7, _⟩ => ⟨S8x256, .i32⟩
  | .hbm, ⟨8, _⟩ => ⟨S8x256, .i1⟩
  | .hbm, ⟨9, _⟩ => ⟨S_, .i32⟩
  | .hbm, ⟨10, _⟩ => ⟨S8x256, .i32⟩
  | .hbm, ⟨11, _⟩ => ⟨S8x256, .i32⟩
  | .hbm, ⟨12, _⟩ => ⟨S8x256, .i32⟩
  | .hbm, ⟨13, _⟩ => ⟨S8x256x1, .i32⟩
  | .hbm, ⟨14, _⟩ => ⟨S8x256x256, .f32⟩
  | .hbm, ⟨15, _⟩ => ⟨S16384x256, .f32⟩
  | .hbm, ⟨16, _⟩ => ⟨S8x256x16384, .f32⟩
  | .hbm, ⟨17, _⟩ => ⟨S_, .f32⟩
  | .hbm, ⟨18, _⟩ => ⟨S8x256x16384, .f32⟩
  | .hbm, ⟨19, _⟩ => ⟨S8x256x16384, .f32⟩
  | .hbm, ⟨20, _⟩ => ⟨S16384x8x256, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S128x128x8x256, .i32⟩
  | .hbm, ⟨25, _⟩ => ⟨S128x128x8x256, .i32⟩
  | .hbm, ⟨26, _⟩ => ⟨S_, .i32⟩
  | .hbm, ⟨27, _⟩ => ⟨S128x128x8x256, .i32⟩
  | .hbm, ⟨28, _⟩ => ⟨S128x128x8x256, .i32⟩
  | .hbm, ⟨29, _⟩ => ⟨S128x128x8x256, .f32⟩
  | .hbm, ⟨30, _⟩ => ⟨S16384x8x256, .f32⟩
  | .hbm, ⟨31, _⟩ => ⟨S16384x8x256, .f32⟩
  | .hbm, ⟨32, _⟩ => ⟨S16384x8x256, .f32⟩
  | .hbm, ⟨33, _⟩ => ⟨S_, .f32⟩
  | .hbm, ⟨34, _⟩ => ⟨S16384x8, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S16384x8x256, .f32⟩
  | .hbm, ⟨40, _⟩ => ⟨S16384x8x256, .f32⟩
  | .hbm, ⟨41, _⟩ => ⟨S8x16384x256, .f32⟩
  | .hbm, ⟨42, _⟩ => ⟨S8x16384x256, .f32⟩
  | .hbm, ⟨43, _⟩ => ⟨S_, .i32⟩
  | .hbm, ⟨44, _⟩ => ⟨S8, .i32⟩
  | .hbm, ⟨45, _⟩ => ⟨S8, .i1⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8, .i32⟩
  | .hbm, ⟨50, _⟩ => ⟨S8x1, .i32⟩
  | .hbm, ⟨51, _⟩ => ⟨S8x1, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1x1, .f32⟩
  | .hbm, ⟨58, _⟩ => ⟨S8x1, .f32⟩
  | .hbm, ⟨59, _⟩ => ⟨S8x1, .f32⟩
  | .hbm, ⟨60, _⟩ => ⟨S8x1, .f32⟩
  | .hbm, ⟨61, _⟩ => ⟨S_, .f32⟩
  | .hbm, ⟨62, _⟩ => ⟨S1, .f32⟩
  | .hbm, ⟨63, _⟩ => ⟨S1x1, .f32⟩
  | .hbm, ⟨64, _⟩ => ⟨S8x1, .f32⟩
  | .hbm, ⟨65, _⟩ => ⟨S8x1, .f32⟩
  | .hbm, ⟨66, _⟩ => ⟨S8x1x1, .f32⟩
  | .hbm, ⟨67, _⟩ => ⟨S8x16384x256, .f32⟩
  | .hbm, ⟨68, _⟩ => ⟨S8x16384x256, .f32⟩
  | .hbm, ⟨69, _⟩ => ⟨S16384x8x256, .f32⟩
  | .hbm, ⟨70, _⟩ => ⟨S128x128x2048, .f32⟩
  | _, _ => ⟨S8x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  shapeCasts_S128x128x256_S16384x256 : S128x128x256.ShapeCasts S16384x256
  bcast_S_S8x256x16384 : S_.BroadcastsInDim S8x256x16384 (![] : Fin 0 → Fin S8x256x16384.rank)
  transposes_S8x256x16384_S16384x8x256_2_0_1 : S8x256x16384.Transposes [2, 0, 1] S16384x8x256
  bcast_S_S128x128x8x256 : S_.BroadcastsInDim S128x128x8x256 (![] : Fin 0 → Fin S128x128x8x256.rank)
  shapeCasts_S128x128x8x256_S16384x8x256 : S128x128x8x256.ShapeCasts S16384x8x256
  reducesTo_S16384x8x256_S16384x8_d2 : S16384x8x256.ReducesTo [2] S16384x8
  h_S_ : 0 < S_.numel
  bcast_S16384x8_S16384x8x1_0_1 : S16384x8.BroadcastsInDim S16384x8x1 (![0, 1] : Fin 2 → Fin S16384x8x1.rank)
  bcast_S_S16384x8x1 : S_.BroadcastsInDim S16384x8x1 (![] : Fin 0 → Fin S16384x8x1.rank)
  bcast_S16384x8x1_S16384x8x256_0_1_2 : S16384x8x1.BroadcastsInDim S16384x8x256 (![0, 1, 2] : Fin 3 → Fin S16384x8x256.rank)
  transposes_S16384x8x256_S8x16384x256_1_0_2 : S16384x8x256.Transposes [1, 0, 2] S8x16384x256
  bcast_S_S8 : S_.BroadcastsInDim S8 (![] : Fin 0 → Fin S8.rank)
  bcast_S8_S8x1_0 : S8.BroadcastsInDim S8x1 (![0] : Fin 1 → Fin S8x1.rank)
  reducesTo_S8x1_S1_d0 : S8x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  shapeCasts_S8x1_S8x1x1 : S8x1.ShapeCasts S8x1x1
  bcast_S8x1x1_S8x16384x256_0_1_2 : S8x1x1.BroadcastsInDim S8x16384x256 (![0, 1, 2] : Fin 3 → Fin S8x16384x256.rank)
  transposes_S8x16384x256_S16384x8x256_1_0_2 : S8x16384x256.Transposes [1, 0, 2] S16384x8x256
  shapeCasts_S16384x8x256_S128x128x2048 : S16384x8x256.ShapeCasts S128x128x2048
  gather_S50000x256_S8x256x1_S8x256x256_2_0_n_n_0_2_1256_wf : GatherDims.WF S50000x256 S8x256x1 S8x256x256 [2] [0] [] [0] [] 2 ![1, 256]
  dot_S8x256x256_S16384x256_S8x256x16384_2_1_01_0_n_n_wf : DotDims.WF S8x256x256 S16384x256 S8x256x16384 [2] [1] [0, 1] [0] [] []
  dot_S8x16384x256_S8x256x256_S8x16384x256_2_1_1_2_0_0_wf : DotDims.WF S8x16384x256 S8x256x256 S8x16384x256 [2] [1] [1] [2] [0] [0]
  gather_S8x1_S8x1_S8x1_1_0_n_n_0_1_11_wf : GatherDims.WF S8x1 S8x1 S8x1 [1] [0] [] [0] [] 1 ![1, 1]

variable [Facts₀]

def gather_S50000x256_S8x256x1_S8x256x256_2_0_n_n_0_2_1256 : GatherDims S50000x256 S8x256x1 S8x256x256 where
  offsetDims := [2]
  collapsedSliceDims := [0]
  operandBatchingDims := []
  startIndicesBatchingDims := []
  startIndexMap := [0]
  indexVectorDim := 2
  sliceSizes := ![1, 256]
  wf := gather_S50000x256_S8x256x1_S8x256x256_2_0_n_n_0_2_1256_wf
def dot_S8x256x256_S16384x256_S8x256x16384_2_1_01_0_n_n : DotDims S8x256x256 S16384x256 S8x256x16384 where
  lhsContracting := [2]
  rhsContracting := [1]
  lhsNonContracting := [0, 1]
  rhsNonContracting := [0]
  lhsBatch := []
  rhsBatch := []
  wf := dot_S8x256x256_S16384x256_S8x256x16384_2_1_01_0_n_n_wf
def dot_S8x16384x256_S8x256x256_S8x16384x256_2_1_1_2_0_0 : DotDims S8x16384x256 S8x256x256 S8x16384x256 where
  lhsContracting := [2]
  rhsContracting := [1]
  lhsNonContracting := [1]
  rhsNonContracting := [2]
  lhsBatch := [0]
  rhsBatch := [0]
  wf := dot_S8x16384x256_S8x256x256_S8x16384x256_2_1_1_2_0_0_wf
def gather_S8x1_S8x1_S8x1_1_0_n_n_0_1_11 : GatherDims S8x1 S8x1 S8x1 where
  offsetDims := [1]
  collapsedSliceDims := [0]
  operandBatchingDims := []
  startIndicesBatchingDims := []
  startIndexMap := [0]
  indexVectorDim := 1
  sliceSizes := ![1, 1]
  wf := gather_S8x1_S8x1_S8x1_1_0_n_n_0_1_11_wf

class Facts : Prop extends Facts₀ where

variable [Facts]
-- ==== Proof.Spec.lean ====
/-
  The function both programs compute, entry by entry, on the extended reals.

  For a span row `sp` (256 reals), one channel's 256 embedding rows `e l` (256 reals each), that channel's 256 mask
  words `mk l` and its weight `w`, entry `d` of the output row is

      ( ∑ l, (a l / (∑ l', a l' + ε)) · e l d ) · w,      a l = exp ((sp · e l) / 16) · clip01 (mk l),

  where `sp · e l` is the dot product over the 256 features. The kernel multiplies the dot product by the word of
  1/16 and forms it as `∑ k, sp k · e l k`; the reference divides by the word of 16 and forms it as
  `∑ k, e l k · sp k`. On the extended reals the two agree for every value of the sum, infinite ones included
  (`score_div_eq`): a quotient by the nonzero real 16 is the product with the real 1/16, and products commute.
-/
import Idealize.ShloMosaic.PureOps.Ideal
import Idealize.ShloMosaic.Lib.ValueIdx

noncomputable section

namespace Cert.SpanAttn

open Idealize.ShloMosaic Idealize.ShloMosaic.ValueIdx
open scoped BigOperators

/-- The word of `16.0` denotes the real 16. -/
theorem ofBits_sixteen : Ideal.ofBits .f32 0x41800000#32 = ((16 : ℝ) : EReal) := by
  simp [Ideal.ofBits, Ideal.ieee, -EReal.coe_mul]; norm_num

/-- The word of `0.0625` denotes the real 1/16. -/
theorem ofBits_sixteenth : Ideal.ofBits .f32 0x3D800000#32 = ((1 / 16 : ℝ) : EReal) := by
  simp [Ideal.ofBits, Ideal.ieee, -EReal.coe_mul]; norm_num

/-- The word of `+0.0` denotes 0. -/
theorem ofBits_zero : Ideal.ofBits .f32 0x00000000#32 = 0 := by
  simp [Ideal.ofBits, Ideal.ieee]

/-- A mask word clipped to [0, 1] as a signed integer, then read as a real. -/
def mval (b : BitVec 32) : EReal := FloatOps.sitofp (F := Ideal) .f32 (IntOp.minsi 1#32 (IntOp.maxsi 0#32 b))

/-- The scale the kernel multiplies a score by: the word of 1/16. -/
def scale : EReal := Ideal.ofBits .f32 0x3D800000#32

/-- The ε both programs add to a row's total: the word nearest 1e-10. -/
def eps : EReal := Ideal.ofBits .f32 0x2EDBE6FF#32

/-- The unnormalised attention weight of one position: exp of the scaled dot product, masked. -/
def weight (sp e : Fin 256 → EReal) (b : BitVec 32) : EReal :=
  Ideal.exp ((∑ k : Fin 256, sp k * e k) * scale) * mval b

/-- One entry of an output row: the normalised weights against column `d` of the channel's embeddings, times the
    channel's weight. -/
def entry (sp : Fin 256 → EReal) (mk : Fin 256 → BitVec 32) (e : Fin 256 → Fin 256 → EReal) (w : EReal) (d : Fin 256) : EReal :=
  (∑ l : Fin 256, Ideal.div (weight sp (e l) (mk l)) ((∑ l' : Fin 256, weight sp (e l') (mk l')) + eps) * e l d) * w

/-- A dot product divided by the word of 16, its factors in the other order, is the dot product times the word of
    1/16 — for every extended-real value of the sum. -/
theorem score_div_eq (sp e : Fin 256 → EReal) :
    Ideal.div (∑ k : Fin 256, e k * sp k) (Ideal.ofBits .f32 0x41800000#32) = (∑ k : Fin 256, sp k * e k) * scale := by
  unfold scale
  rw [ofBits_sixteen, ofBits_sixteenth, Ideal.div_coe (by norm_num : (16 : ℝ) ≠ 0)]
  exact congrArg (· * (((1 / 16 : ℝ)) : EReal)) (Finset.sum_congr rfl fun k _ => mul_comm _ _)

/-- An entry depends on its arguments only through their values. -/
theorem entry_congr {sp sp' : Fin 256 → EReal} {mk mk' : Fin 256 → BitVec 32} {e e' : Fin 256 → Fin 256 → EReal} {w w' : EReal}
    (hsp : ∀ k, sp k = sp' k) (hmk : ∀ l, mk l = mk' l) (he : ∀ l k, e l k = e' l k) (hw : w = w') (d : Fin 256) :
    entry sp mk e w d = entry sp' mk' e' w' d := by
  obtain rfl : sp = sp' := funext hsp
  obtain rfl : mk = mk' := funext hmk
  obtain rfl : e = e' := funext fun l => funext (he l)
  subst hw
  rfl

/-- The whole result as an array [16384, 8, 256]: row `n`, channel `c`, feature `d`, from the flattened spans
    [16384, 256], the mask words [16384, 8, 256], the embeddings [8, 256, 256] and the channel weights [8, 1, 1]. -/
def resultAt (SP : (⟨2, ![16384, 256]⟩ : Shape).Idx → EReal) (MK : (⟨3, ![16384, 8, 256]⟩ : Shape).Idx → BitVec 32)
    (E : (⟨3, ![8, 256, 256]⟩ : Shape).Idx → EReal) (W : (⟨3, ![8, 1, 1]⟩ : Shape).Idx → EReal)
    (n : Fin 16384) (c : Fin 8) (d : Fin 256) : EReal :=
  entry (fun k => SP (ix2 n k)) (fun l => MK (ix3 n c l)) (fun l k => E (ix3 c l k)) (W (ix3 c (0 : Fin 1) (0 : Fin 1))) d

/-- The same as one function of the array index. -/
def result (SP : (⟨2, ![16384, 256]⟩ : Shape).Idx → EReal) (MK : (⟨3, ![16384, 8, 256]⟩ : Shape).Idx → BitVec 32)
    (E : (⟨3, ![8, 256, 256]⟩ : Shape).Idx → EReal) (W : (⟨3, ![8, 1, 1]⟩ : Shape).Idx → EReal) :
    (⟨3, ![16384, 8, 256]⟩ : Shape).Idx → EReal := fun i =>
  resultAt SP MK E W (⟨(i 0).val, (i 0).isLt⟩ : Fin 16384) (⟨(i 1).val, (i 1).isLt⟩ : Fin 8) (⟨(i 2).val, (i 2).isLt⟩ : Fin 256)

theorem result_ix3 (SP : (⟨2, ![16384, 256]⟩ : Shape).Idx → EReal) (MK : (⟨3, ![16384, 8, 256]⟩ : Shape).Idx → BitVec 32)
    (E : (⟨3, ![8, 256, 256]⟩ : Shape).Idx → EReal) (W : (⟨3, ![8, 1, 1]⟩ : Shape).Idx → EReal)
    (n : Fin 16384) (c : Fin 8) (d : Fin 256) : result SP MK E W (ix3 n c d) = resultAt SP MK E W n c d := rfl

end Cert.SpanAttn

end
-- ==== Proof.LibReshape.lean ====
/-
  Two facts about a row-major reshape (`shapeCast`) of an array: a reshape of a reshape is the reshape straight to the
  last shape, whatever the shape in between (every reshape keeps each element's row-major position); and a reshape
  commutes with any elementwise map.
-/
import Idealize.ShloMosaic.Lib.Pipeline.Value

noncomputable section

namespace Cert.LibReshape

open Idealize.ShloMosaic

/-- A reshape of a reshape is the reshape straight to the last shape. -/
theorem shapeCast_trans {s t u : Shape} {α : Type} (x : s.Idx → α) (h : s.ShapeCasts t) (h' : t.ShapeCasts u)
    (h'' : s.ShapeCasts u) : shapeCast u (shapeCast t x h) h' = shapeCast u x h'' :=
  funext fun i => congrArg x (by
    show Shape.reshapeEquiv _ (Shape.reshapeEquiv _ i) = Shape.reshapeEquiv _ i
    rw [Shape.reshapeEquiv_reshapeEquiv])

/-- A reshape commutes with an elementwise map. -/
theorem shapeCast_map {s t : Shape} {α β : Type} (f : α → β) (x : s.Idx → α) (h : s.ShapeCasts t) :
    shapeCast t (fun i => f (x i)) h = fun j => f (shapeCast t x h j) := rfl

end Cert.LibReshape

end
-- ==== Proof.Arrays.lean ====
/-
  The four arrays the host prepares for the kernel, as functions of the launched arguments.

  Before the call the host reshapes the spans [128, 128, 256] to [16384, 256] and the mask [128, 128, 8, 256] to
  [16384, 2048], gathers the embeddings [8, 256, 256] and reshapes them to [2048, 256], and takes the softmax of the
  gathered channel weights, reshaped to [8, 1, 1]; two of them it also rounds to bf16, which changes nothing on the
  extended reals. The gather and the softmax are the same operations of the same arguments as the reference's, so they
  are named here by the reference's own terms and never opened.
-/
import proofs.«163273_j45380624450152_2_alg».proof.Proof.Gen.KernelIdeal.Frame
import proofs.«163273_j45380624450152_2_alg».proof.Proof.Gen.ReferenceIdeal.Read
import proofs.«163273_j45380624450152_2_alg».proof.Proof.Spec
import proofs.«163273_j45380624450152_2_alg».proof.Proof.LibReshape
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arrays

open Idealize.ShloMosaic.ValueIdx Cert.KernelIdeal Cert.KernelIdeal.Gen Cert.SpanAttn
open scoped BigOperators

variable (m : (ℓ : Loc nD τ sig) → Buf (Elt Ideal) ℓ) (ρ : Dev nD → PrngReg)

/-- [128, 128, 8, 256] and [16384, 8, 256] hold the same number of elements. -/
theorem castMK : S128x128x8x256.ShapeCasts Cert.ReferenceIdeal.S16384x8x256 := by decide

/-- The spans flattened to [16384, 256]. -/
abbrev aSP (c : Dev nD) : FVec Ideal S16384x256 .f32 :=
  shapeCast S16384x256 (m ((c : Thread nD τ).loc main_arg1)) shapeCasts_S128x128x256_S16384x256
/-- The mask words in the layout [16384, 8, 256]. -/
abbrev aMK (c : Dev nD) : IVec Cert.ReferenceIdeal.S16384x8x256 32 :=
  shapeCast Cert.ReferenceIdeal.S16384x8x256 (m ((c : Thread nD τ).loc main_arg2)) castMK
/-- The gathered embeddings [8, 256, 256], as the reference's own gather of the same arguments. -/
abbrev aE (c : Dev nD) : FVec Ideal S8x256x256 .f32 :=
  Cert.ReferenceIdeal.Read.val_main_v6 (F := Ideal) (m ((c : Thread nD τ).loc main_arg0)) (m ((c : Thread nD τ).loc main_arg4))
/-- The channel weights [8, 1, 1], as the reference's own softmax of the same arguments. -/
abbrev aW (c : Dev nD) : FVec Ideal S8x1x1 .f32 :=
  Cert.ReferenceIdeal.Read.val_main_v43 (F := Ideal) (m ((c : Thread nD τ).loc main_arg3)) (m ((c : Thread nD τ).loc main_arg5))

/-- The array the span window stages: the flattened spans. -/
theorem V27 (c : Dev nD) : (V m c main_v27 : S16384x256.Idx → EReal) = aSP m c := by
  show StableHlo.after hostOps0 (fun b => m (c, b)) (Proc.devRef .tc main_v27) = _
  after_results
  rfl

/-- The array the mask window stages: the mask reshaped to [16384, 2048]. -/
theorem V28 (c : Dev nD) : (V m c main_v28 : S16384x2048.Idx → BitVec 32)
    = shapeCast S16384x2048 (m ((c : Thread nD τ).loc main_arg2)) shapeCasts_S128x128x8x256_S16384x2048 := by
  show StableHlo.after hostOps0 (fun b => m (c, b)) (Proc.devRef .tc main_v28) = _
  after_results
  rfl

/-- The array the embeddings window stages: the gathered embeddings reshaped to [2048, 256]. -/
theorem V30 (c : Dev nD) : (V m c main_v30 : S2048x256.Idx → EReal)
    = shapeCast S2048x256 (aE m c) shapeCasts_S8x256x256_S2048x256 := by
  show StableHlo.after hostOps0 (fun b => m (c, b)) (Proc.devRef .tc main_v30) = _
  after_results_simp
  rfl

/-- The array the weights window stages: the channel weights. -/
theorem V25 (c : Dev nD) : (V m c main_v25 : S8x1x1.Idx → EReal) = aW m c := by
  show StableHlo.after hostOps0 (fun b => m (c, b)) (Proc.devRef .tc main_v25) = _
  after_results_simp
  rfl

end Cert.KernelIdeal.Arrays

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibBroadcast2.lean ====
/-
  Two rank-2 broadcasts read at an entry: a column [a, 1] spread over b lanes (what a row reduction kept with its unit
  axis becomes when it is spread back over the row), and a one-entry array [1, 1] spread over [a, b].
-/
import Idealize.ShloMosaic.Lib.Pipeline.Value
import Idealize.ShloMosaic.Lib.ValueIdx

noncomputable section

namespace Cert.LibBroadcast2

open Idealize.ShloMosaic Idealize.ShloMosaic.ValueIdx

/-- A column [a, 1] spread over b lanes reads, at (p, c), the column at (p, 0). -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array spread over [a, b] reads its one entry everywhere. -/
theorem bcast_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibBroadcast2

end
-- ==== Proof.Tile.lean ====
/-
  One channel's [512, 256] tile of the kernel body, read at an entry.

  At a grid point the body holds a block of 512 span rows, the same rows of the mask (2048 columns: 8 channels of
  256), all 2048 embedding rows (8 channels of 256) and the 8 channel weights. It forms all 2048 scores of a row by one
  matrix product against the transposed embeddings and multiplies them by the word of 1/16 (`scores_apply`). Then,
  for each channel c, on columns 256 c … 256 c + 255 of the scores and of the mask and on rows 256 c … 256 c + 255
  of the embeddings, it computes the same tile: exp of the scores times the mask clipped to [0, 1]; each row divided by
  its sum plus ε; the matrix product of that with the channel's embeddings; times the channel's weight. `chanTile`
  is that common tile as a function of the four pieces it reads, `chanTile_apply` reads it at an entry — a matrix
  product into a zero accumulator as a sum over the contracted coordinate, the lane sum as a sum over the row — and
  `tile_apply` puts the pieces' own readings in: entry (p, q) of channel c's tile is `Cert.SpanAttn.entry` of row p
  of the spans, channel c's part of row p of the mask, channel c's embeddings and weight.
-/
import proofs.«163273_j45380624450152_2_alg».proof.Proof.Gen.KernelIdeal.Skeleton
import proofs.«163273_j45380624450152_2_alg».proof.Proof.Spec
import proofs.«163273_j45380624450152_2_alg».proof.Proof.LibIdx
import proofs.«163273_j45380624450152_2_alg».proof.Proof.LibContract1
import proofs.«163273_j45380624450152_2_alg».proof.Proof.LibBroadcast2
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx Cert.KernelIdeal Cert.KernelIdeal.Gen Cert.SpanAttn
open scoped BigOperators

/-- The dimension numbers of a channel's second matrix product: [512, 256] × [256, 256], contracting the 256 positions. -/
abbrev D2 := dot_S512x256_S256x256_S512x256_1_0_0_1_n_n

/-- One channel's tile, from that channel's scores `u`, mask words `mk`, embedding rows `e` and weight `w`. -/
def chanTile (u : FVec Ideal S512x256 .f32) (mk : IVec S512x256 32) (e : FVec Ideal S256x256 .bf16) (w : Ideal .f32) : FVec Ideal S512x256 .f32 :=
  have m1 : IVec S512x256 32 := minsi (broadcast S512x256 1#32) (maxsi (broadcast S512x256 0#32) mk)
  have δ : FVec Ideal S512x256 .f32 := mulf (exp u) (sitofp .f32 m1)
  have tot : FVec Ideal S512 .f32 := multiReduction .add [1] S512 δ 0x00000000#32 reduces_S512x256_S512 (.inl rfl) rfl
  have den : FVec Ideal S512x1 .f32 := addf (shapeCast S512x1 tot shapeCasts_S512_S512x1) (broadcast S512x1 (Scalar.ofBits .f32 0x2EDBE6FF#32))
  have a : FVec Ideal S512x256 .f32 := divf δ (broadcastTo S512x256 den broadcasts_S512x1_S512x256)
  mulf (matmul D2 none (truncf .bf16 a bitsLt_bf16_f32) e (constant S512x256 .f32 0x00000000#32)) (broadcast S512x256 w)

/-- Row `p` with lane `k` put back is the index `(p, k)`. -/
theorem lift_row (h : S512x256.Reduces [1] S512) (p : Fin 512) (k : Fin 256) : h.lift (ix1 p) k = ix2 p k := by
  funext c
  apply Fin.ext
  match c with
  | ⟨0, _⟩ => rfl
  | ⟨1, _⟩ => rfl

/-- A sum over the lanes of a [512, 256] array, at row `p`, is the sum of the row's 256 entries. -/
theorem rowsum (src : FVec Ideal S512x256 .f32) (h : S512x256.Reduces [1] S512) (hφ : FKind.Formats FTy.f32)
    (hacc : (0x00000000#32 : BitVec 32) = 0x00000000#32) (p : Fin 512) :
    multiReduction .add [1] S512 src 0x00000000#32 h hφ hacc (ix1 p) = ∑ l : Fin 256, src (ix2 p l) :=
  (Ideal.multiReduction_add_single src 0x00000000#32 h hφ hacc (ix1 p)).trans
    (Finset.sum_congr rfl fun k _ => congrArg src (lift_row h p k))

/-- Where the dimension numbers send a result index and a contracted coordinate, axis by axis: the left operand is read at
    (row of the result, contracted coordinate), the right at (contracted coordinate, column of the result). -/
theorem D2_lhs0 (i : S512x256.Idx) (k : D2.contr.Idx) : (D2.lhsIdx i k 0).val = (i 0).val := by
  unfold DotDims.lhsIdx
  rw [dif_neg (show ¬(0 : Fin S512x256.rank) ∈ D2.lhsBatch by decide), dif_pos (show (0 : Fin S512x256.rank) ∈ D2.lhsNonContracting by decide)]
  rfl
theorem D2_lhs1 (i : S512x256.Idx) (k : D2.contr.Idx) : (D2.lhsIdx i k 1).val = (k ⟨0, by decide⟩).val :=
  D2.lhsIdx_val_of_single rfl i k
theorem D2_rhs0 (i : S512x256.Idx) (k : D2.contr.Idx) : (D2.rhsIdx i k 0).val = (k ⟨0, by decide⟩).val :=
  D2.rhsIdx_val_of_single rfl i k
theorem D2_rhs1 (i : S512x256.Idx) (k : D2.contr.Idx) : (D2.rhsIdx i k 1).val = (i 1).val := by
  unfold DotDims.rhsIdx
  rw [dif_neg (show ¬(1 : Fin S256x256.rank) ∈ D2.rhsBatch by decide), dif_pos (show (1 : Fin S256x256.rank) ∈ D2.rhsNonContracting by decide)]
  rfl

/-- Entry (p, q) of a channel's tile: the row's normalised weights against column q of the embeddings, times the weight. -/
theorem chanTile_apply (u : FVec Ideal S512x256 .f32) (mk : IVec S512x256 32) (e : FVec Ideal S256x256 .bf16) (w : Ideal .f32)
    (p : Fin 512) (q : Fin 256) :
    chanTile u mk e w (ix2 p q)
      = (∑ l : Fin 256, Ideal.div (Ideal.exp (u (ix2 p l)) * mval (mk (ix2 p l)))
            ((∑ l' : Fin 256, Ideal.exp (u (ix2 p l')) * mval (mk (ix2 p l'))) + eps) * e (ix2 l q)) * w := by
  have hL : ∀ k : Fin 256, D2.lhsIdx (ix2 p q) ((contrEquiv1 D2 256 rfl rfl).symm k) = ix2 p k := fun k => funext fun a => Fin.ext (by
    have hk := contrEquiv1_symm_val D2 256 rfl rfl k
    match a with
    | ⟨0, _⟩ => exact D2_lhs0 _ _
    | ⟨1, _⟩ => exact (D2_lhs1 _ _).trans hk)
  have hR : ∀ k : Fin 256, D2.rhsIdx (ix2 p q) ((contrEquiv1 D2 256 rfl rfl).symm k) = ix2 k q := fun k => funext fun a => Fin.ext (by
    have hk := contrEquiv1_symm_val D2 256 rfl rfl k
    match a with
    | ⟨0, _⟩ => exact (D2_rhs0 _ _).trans hk
    | ⟨1, _⟩ => exact D2_rhs1 _ _)
  unfold chanTile
  dsimp only
  rw [mulf_apply, broadcast_apply]
  rw [Cert.LibContract1.matmul_zero_single D2 256 rfl rfl _ _ (ix2 p q) (fun k => ix2 p k) (fun k => ix2 k q) hL hR]
  refine congrArg (· * w) (Finset.sum_congr rfl fun l _ => congrArg (· * e (ix2 l q)) ?_)
  rw [truncf_apply, divf_apply, Cert.LibBroadcast2.bcast_col_apply, addf_apply, Cert.LibIdx.shapeCast_a_a1_apply, broadcast_apply, rowsum]
  rfl

/-- The dimension numbers of the fused score product: [512, 256] × [256, 2048], contracting the 256 features. -/
abbrev D1 := dot_S512x256_S256x2048_S512x2048_1_0_0_1_n_n

/-- The same axis-by-axis reading for the score product. -/
theorem D1_lhs0 (i : S512x2048.Idx) (k : D1.contr.Idx) : (D1.lhsIdx i k 0).val = (i 0).val := by
  unfold DotDims.lhsIdx
  rw [dif_neg (show ¬(0 : Fin S512x256.rank) ∈ D1.lhsBatch by decide), dif_pos (show (0 : Fin S512x256.rank) ∈ D1.lhsNonContracting by decide)]
  rfl
theorem D1_lhs1 (i : S512x2048.Idx) (k : D1.contr.Idx) : (D1.lhsIdx i k 1).val = (k ⟨0, by decide⟩).val :=
  D1.lhsIdx_val_of_single rfl i k
theorem D1_rhs0 (i : S512x2048.Idx) (k : D1.contr.Idx) : (D1.rhsIdx i k 0).val = (k ⟨0, by decide⟩).val :=
  D1.rhsIdx_val_of_single rfl i k
theorem D1_rhs1 (i : S512x2048.Idx) (k : D1.contr.Idx) : (D1.rhsIdx i k 1).val = (i 1).val := by
  unfold DotDims.rhsIdx
  rw [dif_neg (show ¬(1 : Fin S256x2048.rank) ∈ D1.rhsBatch by decide), dif_pos (show (1 : Fin S256x2048.rank) ∈ D1.rhsNonContracting by decide)]
  rfl

/-- The fused score matrix: entry (p, j) is the dot product of span row p with embedding row j, times the word of 1/16. -/
theorem scores_apply (v0 : FVec Ideal S512x256 .bf16) (v2 : FVec Ideal S2048x256 .bf16) (p : Fin 512) (j : Fin 2048) :
    k0_pay5 (F := Ideal) v0 v2 (ix2 p j) = (∑ k : Fin 256, v0 (ix2 p k) * v2 (ix2 j k)) * scale := by
  have hL : ∀ k : Fin 256, D1.lhsIdx (ix2 p j) ((contrEquiv1 D1 256 rfl rfl).symm k) = ix2 p k := fun k => funext fun a => Fin.ext (by
    have hk := contrEquiv1_symm_val D1 256 rfl rfl k
    match a with
    | ⟨0, _⟩ => exact D1_lhs0 _ _
    | ⟨1, _⟩ => exact (D1_lhs1 _ _).trans hk)
  have hR : ∀ k : Fin 256, D1.rhsIdx (ix2 p j) ((contrEquiv1 D1 256 rfl rfl).symm k) = ix2 k j := fun k => funext fun a => Fin.ext (by
    have hk := contrEquiv1_symm_val D1 256 rfl rfl k
    match a with
    | ⟨0, _⟩ => exact (D1_rhs0 _ _).trans hk
    | ⟨1, _⟩ => exact D1_rhs1 _ _)
  unfold k0_pay5 k0_pay3
  dsimp only
  rw [mulf_apply, broadcast_apply]
  rw [Cert.LibContract1.matmul_zero_single D1 256 rfl rfl _ _ (ix2 p j) (fun k => ix2 p k) (fun k => ix2 k j) hL hR]
  refine congrArg (· * scale) (Finset.sum_congr rfl fun k _ => ?_)
  rw [shapeCast_self, transpose_apply [1, 0] _ transposes_S2048x256_p1_0_S256x2048 (ix2 k j) (ix2 j k) (fun b => match b with
    | ⟨0, _⟩ => rfl
    | ⟨1, _⟩ => rfl), shapeCast_self]

/-- The 256 columns of the mask block from column `o` on. -/
def maskBlk (x1 : IVec S512x2048 32) (o : ℕ) (inb : ∀ a, (![0, o] : Fin 2 → Nat) a + S512x256.size a ≤ S512x2048.size a) : IVec S512x256 32 :=
  View.ld (Val := Elt Ideal) (e' := EltTy.i32) x1 (Rect.unit (s := S512x2048) ![0, o] S512x256.size inb)

/-- Its entry (p, l) is entry (p, o + l) of the block. -/
theorem maskBlk_apply (x1 : IVec S512x2048 32) (o : ℕ) (inb : ∀ a, (![0, o] : Fin 2 → Nat) a + S512x256.size a ≤ S512x2048.size a)
    (p : Fin 512) (l : Fin 256) (h : o + l.val < 2048) : maskBlk x1 o inb (ix2 p l) = x1 (ix2 p (⟨o + l.val, h⟩ : Fin 2048)) := by
  show x1 _ = x1 _
  refine congrArg x1 (funext fun a => Fin.ext ?_)
  match a with
  | ⟨0, _⟩ => show 0 + 1 * p.val = p.val; omega
  | ⟨1, _⟩ => show o + 1 * l.val = o + l.val; omega

/-- One entry of the block the body leaves, from the four blocks it reads: row p of the spans, channel c's columns of
    row p of the mask, channel c's rows of the embeddings, and channel c's weight. -/
def tileVal (x0 : FVec Ideal S512x256 .bf16) (x1 : IVec S512x2048 32) (x2 : FVec Ideal S2048x256 .bf16) (x3 : FVec Ideal S8x1x1 .f32)
    (p : Fin 512) (c : Fin 8) (q : Fin 256) : EReal :=
  entry (fun k => x0 (ix2 p k)) (fun l => x1 (ix2 p (⟨256 * c.val + l.val, by omega⟩ : Fin 2048)))
    (fun l k => x2 (ix2 (⟨256 * c.val + l.val, by omega⟩ : Fin 2048) k)) (x3 (ix3 c (0 : Fin 1) (0 : Fin 1))) q

/-- Channel `c`'s tile, its four pieces cut from the blocks at offset `o = 256 c`, at entry (p, q). -/
theorem tile_apply (o : ℕ) (c : Fin 8) (hoc : o = 256 * c.val)
    (hsU : S512x2048.Slices ![0, o] S512x256) (inb : ∀ a, (![0, o] : Fin 2 → Nat) a + S512x256.size a ≤ S512x2048.size a)
    (hsE : S2048x256.Slices ![o, 0] S256x256) (hsW : S8x1x1.Slices ![c.val, 0, 0] S1x1x1)
    (x0 : FVec Ideal S512x256 .bf16) (x1 : IVec S512x2048 32) (x2 : FVec Ideal S2048x256 .bf16) (x3 : FVec Ideal S8x1x1 .f32)
    (p : Fin 512) (q : Fin 256) :
    chanTile (extractStridedSlice S512x256 ![0, o] (k0_pay5 (F := Ideal) x0 x2) hsU)
      (shapeCast S512x256 (maskBlk x1 o inb) shapeCasts_S512x256_S512x256)
      (extractStridedSlice S256x256 ![o, 0] (k0_pay3 (F := Ideal) x2) hsE)
      (extractAt ![0, 0, 0] (extractStridedSlice S1x1x1 ![c.val, 0, 0] (k0_pay4 (F := Ideal) x3) hsW) inpos_S1x1x1_p0_0_0) (ix2 p q)
    = tileVal x0 x1 x2 x3 p c q := by
  subst hoc
  have hU : ∀ l : Fin 256, extractStridedSlice S512x256 ![0, 256 * c.val] (k0_pay5 (F := Ideal) x0 x2) hsU (ix2 p l)
      = (∑ k : Fin 256, x0 (ix2 p k) * x2 (ix2 (⟨256 * c.val + l.val, by omega⟩ : Fin 2048) k)) * scale := fun l =>
    (extractStridedSlice_apply _ _ hsU (ix2 p l) (ix2 p (⟨256 * c.val + l.val, by omega⟩ : Fin 2048)) (fun a => match a with
      | ⟨0, _⟩ => by show p.val = 0 + p.val; omega
      | ⟨1, _⟩ => rfl)).trans (scores_apply x0 x2 p _)
  have hM : ∀ l : Fin 256, shapeCast S512x256 (maskBlk x1 (256 * c.val) inb) shapeCasts_S512x256_S512x256 (ix2 p l)
      = x1 (ix2 p (⟨256 * c.val + l.val, by omega⟩ : Fin 2048)) := fun l => by
    rw [shapeCast_self]
    exact maskBlk_apply x1 _ inb p l _
  have hE : ∀ (l k : Fin 256), extractStridedSlice S256x256 ![256 * c.val, 0] (k0_pay3 (F := Ideal) x2) hsE (ix2 l k)
      = x2 (ix2 (⟨256 * c.val + l.val, by omega⟩ : Fin 2048) k) := fun l k => by
    unfold k0_pay3
    dsimp only
    rw [shapeCast_self]
    exact extractStridedSlice_apply _ _ hsE (ix2 l k) (ix2 (⟨256 * c.val + l.val, by omega⟩ : Fin 2048) k) (fun a => match a with
      | ⟨0, _⟩ => rfl
      | ⟨1, _⟩ => by show k.val = 0 + k.val; omega)
  have hW : extractAt ![0, 0, 0] (extractStridedSlice S1x1x1 ![c.val, 0, 0] (k0_pay4 (F := Ideal) x3) hsW) inpos_S1x1x1_p0_0_0 = x3 (ix3 c (0 : Fin 1) (0 : Fin 1)) := by
    unfold k0_pay4 extractAt
    dsimp only
    rw [shapeCast_self]
    exact extractStridedSlice_apply _ _ hsW _ (ix3 c (0 : Fin 1) (0 : Fin 1)) (fun a => match a with
      | ⟨0, _⟩ => by show c.val = c.val + 0; omega
      | ⟨1, _⟩ => rfl
      | ⟨2, _⟩ => rfl)
  rw [chanTile_apply, hW]
  unfold tileVal entry weight
  simp only [hU, hM, hE]

end Cert.KernelIdeal.Tile

end
-- ==== Proof.Block.lean ====
/-
  The output block of a grid point as ONE function of its index.

  The body stores eight [512, 256] tiles, channel c's into columns 256 c … 256 c + 255 of the [512, 2048] block. The
  eight column ranges tile the block, and each tile is the same function of the block index restricted to its range:
  at row p and column e the block holds `tileVal` at row p, channel e / 256 and feature e % 256 (`blockG`). So the
  block the eight stores leave is `blockG` everywhere (`out_eq`): an index lies in exactly the tile of its channel.
-/
import proofs.«163273_j45380624450152_2_alg».proof.Proof.Gen.KernelIdeal.Frame
import proofs.«163273_j45380624450152_2_alg».proof.Proof.Tile

set_option maxRecDepth 16384

noncomputable section

namespace Cert.KernelIdeal.Block

open Idealize.ShloMosaic Idealize.ShloMosaic.ValueIdx Cert.KernelIdeal Cert.KernelIdeal.Gen Cert.KernelIdeal.Tile Cert.SpanAttn
open scoped BigOperators

/-- Offsets `[0, 0]` are the zero offsets. -/
theorem hz2 : (![0, 0] : Fin 2 → Nat) = fun _ => 0 := funext fun a => by fin_cases a <;> rfl
/-- So are `[0, 0, 0]`. -/
theorem hz3 : (![0, 0, 0] : Fin 3 → Nat) = fun _ => 0 := funext fun a => by fin_cases a <;> rfl

/-- The block the body leaves, as one function of its index: row, then channel and feature from the column. -/
def blockG (x0 : FVec Ideal S512x256 .bf16) (x1 : IVec S512x2048 32) (x2 : FVec Ideal S2048x256 .bf16) (x3 : FVec Ideal S8x1x1 .f32) :
    S512x2048.Idx → EReal := fun y =>
  tileVal x0 x1 x2 x3 (⟨(y 0).val, idx2_lt0 y⟩ : Fin 512) (⟨(y 1).val / 256, by have := idx2_lt1 y; omega⟩ : Fin 8)
    (⟨(y 1).val % 256, Nat.mod_lt _ (by decide)⟩ : Fin 256)

/-- `tileVal` at equal coordinates. -/
theorem tileVal_congr (x0 : FVec Ideal S512x256 .bf16) (x1 : IVec S512x2048 32) (x2 : FVec Ideal S2048x256 .bf16) (x3 : FVec Ideal S8x1x1 .f32)
    {p p' : Fin 512} {c c' : Fin 8} {q q' : Fin 256} (hp : p = p') (hc : c = c') (hq : q = q') :
    tileVal x0 x1 x2 x3 p c q = tileVal x0 x1 x2 x3 p' c' q' := by subst hp hc hq; rfl

/-- At an index of channel `c`'s column range — entry (p, q) of the range starting at column `o = 256 c` — the block
    function is channel `c`'s tile at (p, q): (256 c + q) / 256 = c and (256 c + q) % 256 = q. -/
theorem blockG_emb (x0 : FVec Ideal S512x256 .bf16) (x1 : IVec S512x2048 32) (x2 : FVec Ideal S2048x256 .bf16) (x3 : FVec Ideal S8x1x1 .f32)
    (o : ℕ) (c : Fin 8) (hoc : o = 256 * c.val) (inb : ∀ a, (![0, o] : Fin 2 → Nat) a + S512x256.size a ≤ S512x2048.size a)
    (p : Fin 512) (q : Fin 256) :
    blockG x0 x1 x2 x3 ((Rect.unit (s := S512x2048) ![0, o] S512x256.size inb).emb (ix2 p q)) = tileVal x0 x1 x2 x3 p c q := by
  subst hoc
  unfold blockG
  refine tileVal_congr x0 x1 x2 x3 (Fin.ext ?_) (Fin.ext ?_) (Fin.ext ?_)
  · show 0 + 1 * p.val = p.val; omega
  · show (256 * c.val + 1 * q.val) / 256 = c.val; have := q.isLt; omega
  · show (256 * c.val + 1 * q.val) % 256 = q.val; have := q.isLt; omega

/-- What the body leaves in the output block is `blockG` of the four blocks it read. -/
theorem out_eq (x0 : FVec Ideal S512x256 .bf16) (x1 : IVec S512x2048 32) (x2 : FVec Ideal S2048x256 .bf16) (x3 : FVec Ideal S8x1x1 .f32) :
    out0_4 (F := Ideal) x0 x1 x2 x3 = blockG x0 x1 x2 x3 := by
  funext y
  unfold out0_4
  simp only [View.ld_unit_zero (S := S512x256) hz2, View.ld_unit_zero (S := S2048x256) hz2, View.ld_unit_zero (S := S8x1x1) hz3]
  refine View.canon_apply_of_pieces (Val := Elt Ideal) (e := EltTy.f32) (blockG x0 x1 x2 x3) _ ?_ y (cover0_4 _ _ _ _ _ _ _ _ y)
  intro pc hpc
  simp only [List.mem_cons, List.not_mem_nil, or_false] at hpc
  rcases hpc with rfl | rfl | rfl | rfl | rfl | rfl | rfl | rfl
  all_goals intro x
  all_goals obtain ⟨p, q, rfl⟩ : ∃ (p : Fin 512) (q : Fin 256), x = ix2 p q := ⟨x 0, x 1, eq_ix2 (n0 := 512) (n1 := 256) x⟩
  · exact (tile_apply 1792 7 rfl slices_S512x2048_o0_1792_S512x256 inb_S512x2048_S512x256_0_1792 slices_S2048x256_o1792_0_S256x256 slices_S8x1x1_o7_0_0_S1x1x1 x0 x1 x2 x3 p q).trans
      (blockG_emb x0 x1 x2 x3 1792 7 rfl inb_S512x2048_S512x256_0_1792 p q).symm
  · exact (tile_apply 1536 6 rfl slices_S512x2048_o0_1536_S512x256 inb_S512x2048_S512x256_0_1536 slices_S2048x256_o1536_0_S256x256 slices_S8x1x1_o6_0_0_S1x1x1 x0 x1 x2 x3 p q).trans
      (blockG_emb x0 x1 x2 x3 1536 6 rfl inb_S512x2048_S512x256_0_1536 p q).symm
  · exact (tile_apply 1280 5 rfl slices_S512x2048_o0_1280_S512x256 inb_S512x2048_S512x256_0_1280 slices_S2048x256_o1280_0_S256x256 slices_S8x1x1_o5_0_0_S1x1x1 x0 x1 x2 x3 p q).trans
      (blockG_emb x0 x1 x2 x3 1280 5 rfl inb_S512x2048_S512x256_0_1280 p q).symm
  · exact (tile_apply 1024 4 rfl slices_S512x2048_o0_1024_S512x256 inb_S512x2048_S512x256_0_1024 slices_S2048x256_o1024_0_S256x256 slices_S8x1x1_o4_0_0_S1x1x1 x0 x1 x2 x3 p q).trans
      (blockG_emb x0 x1 x2 x3 1024 4 rfl inb_S512x2048_S512x256_0_1024 p q).symm
  · exact (tile_apply 768 3 rfl slices_S512x2048_o0_768_S512x256 inb_S512x2048_S512x256_0_768 slices_S2048x256_o768_0_S256x256 slices_S8x1x1_o3_0_0_S1x1x1 x0 x1 x2 x3 p q).trans
      (blockG_emb x0 x1 x2 x3 768 3 rfl inb_S512x2048_S512x256_0_768 p q).symm
  · exact (tile_apply 512 2 rfl slices_S512x2048_o0_512_S512x256 inb_S512x2048_S512x256_0_512 slices_S2048x256_o512_0_S256x256 slices_S8x1x1_o2_0_0_S1x1x1 x0 x1 x2 x3 p q).trans
      (blockG_emb x0 x1 x2 x3 512 2 rfl inb_S512x2048_S512x256_0_512 p q).symm
  · exact (tile_apply 256 1 rfl slices_S512x2048_o0_256_S512x256 inb_S512x2048_S512x256_0_256 slices_S2048x256_o256_0_S256x256 slices_S8x1x1_o1_0_0_S1x1x1 x0 x1 x2 x3 p q).trans
      (blockG_emb x0 x1 x2 x3 256 1 rfl inb_S512x2048_S512x256_0_256 p q).symm
  · exact (tile_apply 0 0 rfl slices_S512x2048_o0_0_S512x256 inb_S512x2048_S512x256_0_0 slices_S2048x256_o0_0_S256x256 slices_S8x1x1_o0_0_0_S1x1x1 x0 x1 x2 x3 p q).trans
      (blockG_emb x0 x1 x2 x3 0 0 rfl inb_S512x2048_S512x256_0_0 p q).symm

end Cert.KernelIdeal.Block

end
-- ==== Proof.KernelValue.lean ====
/-
  From blocks to the whole array: what the kernel's program returns.

  Grid point t reads rows 512 t … 512 t + 511 of the flattened spans and of the mask, all of the embeddings and all of
  the weights (`rd0` … `rd3`), and writes rows 512 t … 512 t + 511 of the [16384, 2048] output. Entry (p, e) of its
  block is the specification's entry at row 512 t + p, channel e / 256, feature e % 256 — which is entry
  (512 t + p, e) of the specification array [16384, 8, 256] reshaped to [16384, 2048], because
  (n · 8 + e / 256) · 256 + e % 256 = n · 2048 + e (`flat_apply`, `flushed_eq`). The 32 blocks cover the array
  (`cover`), so after the run it IS that reshape (`final`); the host's last reshape to [128, 128, 2048] composes
  with it into the reshape of the specification array straight to [128, 128, 2048] (`tail_eq`, `run`).
-/
import proofs.«163273_j45380624450152_2_alg».proof.Proof.Gen.KernelIdeal.Frame
import proofs.«163273_j45380624450152_2_alg».proof.Proof.Arrays
import proofs.«163273_j45380624450152_2_alg».proof.Proof.Block
import proofs.«163273_j45380624450152_2_alg».proof.Proof.LibReshape
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Idealize.ShloMosaic.ValueIdx Cert.KernelIdeal Cert.KernelIdeal.Gen Cert.KernelIdeal.Arrays Cert.KernelIdeal.Block Cert.KernelIdeal.Tile Cert.SpanAttn Cert.LibReshape
open scoped BigOperators

variable (m : (ℓ : Loc nD τ sig) → Buf (Elt Ideal) ℓ) (ρ : Dev nD → PrngReg)

/-- [16384, 8, 256], [16384, 2048], [128, 128, 2048] hold the same number of elements, and so do [2048, 256] and [8, 256, 256]. -/
theorem castOut : Cert.ReferenceIdeal.S16384x8x256.ShapeCasts S16384x2048 := by decide
theorem castFinal : Cert.ReferenceIdeal.S16384x8x256.ShapeCasts S128x128x2048 := by decide
theorem castE : S2048x256.ShapeCasts S8x256x256 := by decide

/-- The specification's array [16384, 8, 256] of the launched arguments. -/
abbrev spec (c : Dev nD) : Cert.ReferenceIdeal.S16384x8x256.Idx → EReal := result (aSP m c) (aMK m c) (aE m c) (aW m c)
/-- The same in the kernel's flat layout [16384, 2048]. -/
abbrev flat (c : Dev nD) : S16384x2048.Idx → EReal := shapeCast S16384x2048 (spec m c) castOut

/-- Entry (n, e) of the flat layout is the specification's entry at row n, channel e / 256, feature e % 256. -/
theorem flat_apply (c : Dev nD) (n : Fin 16384) (e : Fin 2048) :
    flat m c (ix2 n e) = resultAt (aSP m c) (aMK m c) (aE m c) (aW m c) n (⟨e.val / 256, by omega⟩ : Fin 8) (⟨e.val % 256, Nat.mod_lt _ (by decide)⟩ : Fin 256) :=
  (shapeCast_apply _ castOut (ix2 n e) (ix3 n (⟨e.val / 256, by omega⟩ : Fin 8) (⟨e.val % 256, Nat.mod_lt _ (by decide)⟩ : Fin 256)) (by
    rw [Shape.rowMajor_val_three, Shape.rowMajor_val_two]
    show (n.val * 8 + e.val / 256) * 256 + e.val % 256 = n.val * 2048 + e.val
    omega)).trans (result_ix3 _ _ _ _ _ _ _)

/-- The windows' block indices over the 32 grid points: the spans, the mask and the output move one block of rows per
    point; the embeddings and the weights stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- There are 32 grid points. -/
theorem lt32 (t : Fin cfg0.N) : t.val < 32 := by have h : cfg0.N = 32 := N_0; have := t.isLt; omega

/-- Rows 512 t … 512 t + 511 of the flattened spans are the span block at point t. -/
theorem rd0 (c : Dev nD) (t : Fin cfg0.N) (p : Fin 512) (k : Fin 256) (h : 512 * t.val + p.val < 16384) :
    (iblk m c 0 t : FVec Ideal S512x256 .bf16) (ix2 p k) = aSP m c (ix2 (⟨512 * t.val + p.val, h⟩ : Fin 16384) k) := by
  obtain ⟨e0, e1, -⟩ := idx_facts t
  unfold iblk
  rw [View.read_apply]
  show (V m c main_v27 : S16384x256.Idx → EReal) _ = _
  rw [V27]
  refine congrArg (aSP m c) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 256 + 1 * k.val = k.val; rw [e1]; omega

/-- The same rows of the mask, its 2048 columns read as 8 channels of 256. -/
theorem rd1 (c : Dev nD) (t : Fin cfg0.N) (p : Fin 512) (j : Fin 2048) (h : 512 * t.val + p.val < 16384) :
    (iblk m c 1 t : IVec S512x2048 32) (ix2 p j)
      = aMK m c (ix3 (⟨512 * t.val + p.val, h⟩ : Fin 16384) (⟨j.val / 256, by omega⟩ : Fin 8) (⟨j.val % 256, Nat.mod_lt _ (by decide)⟩ : Fin 256)) := by
  obtain ⟨-, -, e0, e1, -⟩ := idx_facts t
  unfold iblk
  rw [View.read_apply]
  show (V m c main_v28 : S16384x2048.Idx → BitVec 32) _ = _
  rw [V28, ← shapeCast_trans (m ((c : Thread nD τ).loc main_arg2)) castMK castOut shapeCasts_S128x128x8x256_S16384x2048]
  refine shapeCast_apply _ castOut _ _ ?_
  rw [Shape.rowMajor_val_three, Shape.rowMajor_val_two]
  show ((512 * t.val + p.val) * 8 + j.val / 256) * 256 + j.val % 256 = (win0_1.index t (0 : Fin 2) * 512 + 1 * p.val) * 2048 + (win0_1.index t (1 : Fin 2) * 2048 + 1 * j.val)
  rw [e0, e1]; omega

/-- The embeddings block is the whole flattened embeddings array: row r is row r % 256 of channel r / 256. -/
theorem rd2 (c : Dev nD) (t : Fin cfg0.N) (r : Fin 2048) (k : Fin 256) :
    (iblk m c 2 t : FVec Ideal S2048x256 .bf16) (ix2 r k)
      = aE m c (ix3 (⟨r.val / 256, by omega⟩ : Fin 8) (⟨r.val % 256, Nat.mod_lt _ (by decide)⟩ : Fin 256) k) := by
  obtain ⟨-, -, -, -, e0, e1, -⟩ := idx_facts t
  unfold iblk
  rw [View.read_apply]
  show (V m c main_v30 : S2048x256.Idx → EReal) _ = _
  rw [V30]
  refine shapeCast_apply _ shapeCasts_S8x256x256_S2048x256 _ _ ?_
  rw [Shape.rowMajor_val_three, Shape.rowMajor_val_two]
  show (r.val / 256 * 256 + r.val % 256) * 256 + k.val = (win0_2.index t (0 : Fin 2) * 2048 + 1 * r.val) * 256 + (win0_2.index t (1 : Fin 2) * 256 + 1 * k.val)
  rw [e0, e1]; omega

/-- The weights block is the whole weights array. -/
theorem rd3 (c : Dev nD) (t : Fin cfg0.N) (a : Fin 8) :
    (iblk m c 3 t : FVec Ideal S8x1x1 .f32) (ix3 a (0 : Fin 1) (0 : Fin 1)) = aW m c (ix3 a (0 : Fin 1) (0 : Fin 1)) := by
  obtain ⟨-, -, -, -, -, -, e0, e1, e2, -⟩ := idx_facts t
  unfold iblk
  rw [View.read_apply]
  show (V m c main_v25 : S8x1x1.Idx → EReal) _ = _
  rw [V25]
  refine congrArg (aW m c) (funext fun b => Fin.ext ?_)
  match b with
  | ⟨0, _⟩ => show win0_3.index t (0 : Fin 3) * 8 + 1 * a.val = a.val; rw [e0]; omega
  | ⟨1, _⟩ => show win0_3.index t (1 : Fin 3) * 1 + 1 * 0 = 0; rw [e1]
  | ⟨2, _⟩ => show win0_3.index t (2 : Fin 3) * 1 + 1 * 0 = 0; rw [e2]

/-- The block function at row p and column e. -/
theorem blockG_ix2 (x0 : FVec Ideal S512x256 .bf16) (x1 : IVec S512x2048 32) (x2 : FVec Ideal S2048x256 .bf16) (x3 : FVec Ideal S8x1x1 .f32)
    (p : Fin 512) (e : Fin 2048) :
    blockG x0 x1 x2 x3 (ix2 p e) = tileVal x0 x1 x2 x3 p (⟨e.val / 256, by omega⟩ : Fin 8) (⟨e.val % 256, Nat.mod_lt _ (by decide)⟩ : Fin 256) := rfl

/-- What point t writes back is block t of the flat specification array. -/
theorem flushed_eq (c : Dev nD) (t : Fin cfg0.N) :
    (dats m 0 c).flushed 4 t = ((cfg0.win 4).blk t).view.read (Elt Ideal) (flat m c) := by
  have ht := lt32 t
  obtain ⟨-, -, -, -, -, -, -, -, -, e0, e1⟩ := idx_facts t
  show (cfg0.win 4).cut (grid0.coords t) ((dats m 0 c).after 4 t) = _
  rw [after0_4, out_eq]
  funext j
  obtain ⟨p, e, rfl⟩ : ∃ (p : Fin 512) (e : Fin 2048), j = ix2 p e := ⟨j 0, j 1, eq_ix2 (n0 := 512) (n1 := 2048) j⟩
  have hn : 512 * t.val + p.val < 16384 := by omega
  have hemb : ((cfg0.win 4).blk t).view.emb (ix2 p e) = ix2 (⟨512 * t.val + p.val, hn⟩ : Fin 16384) e := funext fun a => Fin.ext (by
    match a with
    | ⟨0, _⟩ => show win0_4.index t (0 : Fin 2) * 512 + 1 * p.val = 512 * t.val + p.val; rw [e0]; omega
    | ⟨1, _⟩ => show win0_4.index t (1 : Fin 2) * 2048 + 1 * e.val = e.val; rw [e1]; omega)
  show blockG (iblk m c 0 t) (iblk m c 1 t) (iblk m c 2 t) (iblk m c 3 t) (ix2 p e) = flat m c (((cfg0.win 4).blk t).view.emb (ix2 p e))
  rw [hemb, flat_apply, blockG_ix2]
  unfold tileVal resultAt
  refine entry_congr (fun k => rd0 m c t p k hn) (fun l => ?_) (fun l k => ?_) (rd3 m c t _) _
  · refine (rd1 m c t p _ hn).trans (congrArg (aMK m c) (funext fun a => Fin.ext ?_))
    match a with
    | ⟨0, _⟩ => rfl
    | ⟨1, _⟩ => show (256 * (e.val / 256) + l.val) / 256 = e.val / 256; omega
    | ⟨2, _⟩ => show (256 * (e.val / 256) + l.val) % 256 = l.val; omega
  · refine (rd2 m c t _ k).trans (congrArg (aE m c) (funext fun a => Fin.ext ?_))
    match a with
    | ⟨0, _⟩ => show (256 * (e.val / 256) + l.val) / 256 = e.val / 256; omega
    | ⟨1, _⟩ => show (256 * (e.val / 256) + l.val) % 256 = l.val; omega
    | ⟨2, _⟩ => rfl

/-- An index of the output array is in point t's block iff each coordinate is in the block's range on its axis. -/
theorem mem_blk4 (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v31).slice (win0_4.rect t)).set ↔ _
  rw [View.set_slice_whole, Rect.mem_set_unit]
  exact Iff.rfl

/-- Every index of the flat array lies in the block of the point its row belongs to. -/
theorem cover (i : S16384x2048.Idx) : ∃ t : Fin cfg0.N, (cfg0.win 4).flush t = true ∧ i ∈ ((cfg0.win 4).blk t).view.set := by
  have hN : cfg0.N = 32 := N_0
  have h0 : (i 0).val < 16384 := idx2_lt0 i
  have h1 : (i 1).val < 2048 := idx2_lt1 i
  obtain ⟨-, -, -, -, -, -, -, -, -, e0, e1⟩ := idx_facts (⟨(i 0).val / 512, by rw [hN]; omega⟩ : Fin cfg0.N)
  refine ⟨⟨(i 0).val / 512, by rw [hN]; omega⟩, flush0_4 _, ?_⟩
  rw [mem_blk4]
  intro a
  match a with
  | ⟨0, _⟩ =>
    show win0_4.index _ (0 : Fin 2) * 512 ≤ (i 0).val ∧ (i 0).val < win0_4.index _ (0 : Fin 2) * 512 + 512
    rw [e0]; show (i 0).val / 512 * 512 ≤ (i 0).val ∧ (i 0).val < (i 0).val / 512 * 512 + 512; omega
  | ⟨1, _⟩ =>
    show win0_4.index _ (1 : Fin 2) * 2048 ≤ (i 1).val ∧ (i 1).val < win0_4.index _ (1 : Fin 2) * 2048 + 2048
    rw [e1]; omega

/-- The kernel's output array after the run is the flat specification array. -/
theorem final (c : Dev nD) : (dats m 0 c).arrAt 4 cfg0.N = flat m c :=
  (dats m 0 c).arrAt_eq_of_cover 4 (flat m c) (fun t _ => flushed_eq m c t) cover

/-- The host's last reshape of it is the specification array reshaped to [128, 128, 2048]. -/
theorem tail_eq (c : Dev nD) :
    Pipeline.afterTail₀ cfgs (dats m) 0 (V0 m) [hostOps1] c main_v32 = shapeCast S128x128x2048 (spec m c) castFinal := by
  unfold Pipeline.afterTail₀
  show StableHlo.after hostOps1 _ (Proc.devRef .tc main_v32) = _
  after_results
  show shapeCast S128x128x2048 (Pipeline.withArrays spec0 c (V0 m c) (fun w => (dats m 0 c).arrAt w cfg0.N) (Proc.devRef .tc main_v31))
      shapeCasts_S16384x2048_S128x128x2048 = _
  exact (congrArg (fun X => shapeCast S128x128x2048 X shapeCasts_S16384x2048_S128x128x2048)
    ((Pipeline.withArrays_arr spec0 launch0.win.arr_inj c _ _ 4).trans (final m c))).trans
    (shapeCast_trans _ castOut _ castFinal)

/-- The kernel's run, read: the result at the specification array reshaped to [128, 128, 2048], the arguments unchanged. -/
theorem run : θ_run defs (onTc (τ := τ) (main (F := Ideal))) ⟨m, fun _ => 0, ρ⟩ fun r => ∀ c : Dev nD,
      r.2.mem ((c.tc : Thread nD τ).loc main_v32) = shapeCast S128x128x2048 (spec m c) castFinal
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v32 (Pipeline.mem_restRefs_of main_v32 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefValue.lean ====
/-
  The reference, read at an index.

  The reference takes the dot products of every embedding row with every span row as one `dot_general` [8, 256, 16384],
  divides by the word of 16, moves the span axis first, multiplies exp of that by the clipped mask, divides each
  (row, channel) by its sum over the 256 positions plus ε, contracts the positions against the embeddings per
  channel, multiplies by the channel weights and moves the span axis first again. Read at (n, c, d), operation by
  operation — a transposition permutes coordinates, a broadcast drops them, a sum over an axis is the sum over its
  coordinate — it is the specification's entry (`ref_result`); the one step that is not a re-spelling is the score,
  where a quotient by 16 of a sum of products `e · sp` meets the product by 1/16 of the sum of `sp · e`
  (`Cert.SpanAttn.score_div_eq`).
-/
import proofs.«163273_j45380624450152_2_alg».proof.Proof.Gen.ReferenceIdeal.Read
import proofs.«163273_j45380624450152_2_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.SpanAttn
open scoped BigOperators

section Indices
variable (n : Fin 16384) (c : Fin 8) (d l k : Fin 256)

/-- The index each layout operation of the reference reads, at an index written by its coordinates. -/
theorem i46 : idx_main_v46 (ix3 n c d) = ix3 c n d := funext fun a => Fin.ext (by match a with | ⟨0, _⟩ => rfl | ⟨1, _⟩ => rfl | ⟨2, _⟩ => rfl)
theorem i44 : idx_main_v44 (ix3 c n d) = ix3 c (0 : Fin 1) (0 : Fin 1) := funext fun a => Fin.ext (by match a with | ⟨0, _⟩ => rfl | ⟨1, _⟩ => rfl | ⟨2, _⟩ => rfl)
theorem l24 : lidx_main_v24 (ix3 c n d) k = ix3 c n k := funext fun a => Fin.ext (by match a with | ⟨0, _⟩ => rfl | ⟨1, _⟩ => rfl | ⟨2, _⟩ => rfl)
theorem r24 : ridx_main_v24 (ix3 c n d) k = ix3 c k d := funext fun a => Fin.ext (by match a with | ⟨0, _⟩ => rfl | ⟨1, _⟩ => rfl | ⟨2, _⟩ => rfl)
theorem i23 : idx_main_v23 (ix3 c n k) = ix3 n c k := funext fun a => Fin.ext (by match a with | ⟨0, _⟩ => rfl | ⟨1, _⟩ => rfl | ⟨2, _⟩ => rfl)
theorem i21 : idx_main_v21 (ix3 n c k) = ix3 n c (0 : Fin 1) := funext fun a => Fin.ext (by match a with | ⟨0, _⟩ => rfl | ⟨1, _⟩ => rfl | ⟨2, _⟩ => rfl)
theorem i18 : idx_main_v18 (ix3 n c (0 : Fin 1)) = ix2 n c := funext fun a => Fin.ext (by match a with | ⟨0, _⟩ => rfl | ⟨1, _⟩ => rfl)
theorem i17 : idx_main_v17 (ix2 n c) k = ix3 n c k := funext fun a => Fin.ext (by match a with | ⟨0, _⟩ => rfl | ⟨1, _⟩ => rfl | ⟨2, _⟩ => rfl)
theorem i11 : idx_main_v11 (ix3 n c l) = ix3 c l n := funext fun a => Fin.ext (by match a with | ⟨0, _⟩ => rfl | ⟨1, _⟩ => rfl | ⟨2, _⟩ => rfl)
theorem l8 : lidx_main_v8 (ix3 c l n) k = ix3 c l k := funext fun a => Fin.ext (by match a with | ⟨0, _⟩ => rfl | ⟨1, _⟩ => rfl | ⟨2, _⟩ => rfl)
theorem r8 : ridx_main_v8 (ix3 c l n) k = ix2 n k := funext fun a => Fin.ext (by match a with | ⟨0, _⟩ => rfl | ⟨1, _⟩ => rfl)

end Indices

variable (x0 : (⟨S8x256, .i32⟩ : BufTy).Contents (Elt Ideal)) (x1 : (⟨S128x128x256, .f32⟩ : BufTy).Contents (Elt Ideal))
  (x2 : (⟨S128x128x8x256, .i32⟩ : BufTy).Contents (Elt Ideal)) (x3 : (⟨S8, .i32⟩ : BufTy).Contents (Elt Ideal))
  (x4 : (⟨S50000x256, .f32⟩ : BufTy).Contents (Elt Ideal)) (x5 : (⟨S8x1, .f32⟩ : BufTy).Contents (Elt Ideal))

/-- The mask words in the layout [16384, 8, 256]. -/
abbrev maskArr : IVec S16384x8x256 32 := shapeCast S16384x8x256 x2 shapeCasts_S128x128x8x256_S16384x8x256

/-- The reference's mask array at (n, c, l): the mask word there, clipped and read as a real. -/
theorem mask_apply (n : Fin 16384) (c : Fin 8) (l : Fin 256) :
    val_main_v14 (F := Ideal) x2 (ix3 n c l) = mval (maskArr x2 (ix3 n c l)) := rfl

/-- The unnormalised weight at (n, c, l). -/
theorem weight_apply (n : Fin 16384) (c : Fin 8) (l : Fin 256) :
    val_main_v16 (F := Ideal) x0 x1 x2 x4 (ix3 n c l)
      = weight (fun k => val_main_v7 (F := Ideal) x1 (ix2 n k)) (fun k => val_main_v6 (F := Ideal) x0 x4 (ix3 c l k)) (maskArr x2 (ix3 n c l)) := by
  rw [val_main_v16_apply, val_main_v15_apply, val_main_v11_apply, i11, val_main_v10_apply, val_main_v8_apply, val_main_v9_apply, val_main_cst_apply, mask_apply]
  simp only [l8, r8]
  unfold weight
  rw [← score_div_eq]
  rfl

/-- A (row, channel)'s total: the initial value is the word of zero. -/
theorem total_apply (n : Fin 16384) (c : Fin 8) :
    val_main_v17 (F := Ideal) x0 x1 x2 x4 (ix2 n c)
      = ∑ l : Fin 256, weight (fun k => val_main_v7 (F := Ideal) x1 (ix2 n k)) (fun k => val_main_v6 (F := Ideal) x0 x4 (ix3 c l k)) (maskArr x2 (ix3 n c l)) := by
  rw [val_main_v17_apply, val_main_cst_3_apply, Ideal.ofBits_def, ofBits_zero, zero_add]
  simp only [i17, weight_apply]

/-- The normalised weight, in the layout [8, 16384, 256] the second contraction reads. -/
theorem attn_apply (n : Fin 16384) (c : Fin 8) (l : Fin 256) :
    val_main_v23 (F := Ideal) x0 x1 x2 x4 (ix3 c n l)
      = Ideal.div (weight (fun k => val_main_v7 (F := Ideal) x1 (ix2 n k)) (fun k => val_main_v6 (F := Ideal) x0 x4 (ix3 c l k)) (maskArr x2 (ix3 n c l)))
          ((∑ l' : Fin 256, weight (fun k => val_main_v7 (F := Ideal) x1 (ix2 n k)) (fun k => val_main_v6 (F := Ideal) x0 x4 (ix3 c l' k)) (maskArr x2 (ix3 n c l'))) + eps) := by
  rw [val_main_v23_apply, i23, val_main_v22_apply, val_main_v21_apply, i21, val_main_v20_apply, val_main_v18_apply, i18, total_apply,
    val_main_v19_apply, val_main_cst_4_apply, weight_apply]
  rfl

/-- The reference's result before its last reshape is the specification's array. -/
theorem ref_result :
    val_main_v46 (F := Ideal) x0 x1 x2 x3 x4 x5
      = result (val_main_v7 (F := Ideal) x1) (maskArr x2) (val_main_v6 (F := Ideal) x0 x4) (val_main_v43 (F := Ideal) x3 x5) := by
  funext i
  obtain ⟨n, c, d, rfl⟩ : ∃ (n : Fin 16384) (c : Fin 8) (d : Fin 256), i = ix3 n c d := ⟨i 0, i 1, i 2, eq_ix3 i⟩
  rw [result_ix3, val_main_v46_apply, i46, val_main_v45_apply, val_main_v44_apply, i44, val_main_v24_apply]
  simp only [l24, r24, attn_apply]
  rfl

end Cert.ReferenceIdeal.RefValue

end
-- ==== Proof.lean ====
/-
  The certificate of the span-attention kernel against its jnp reference.

  Both programs compute, for every span row n, channel c and feature d,

      out[n, c, d] = ( ∑ l, (a[n,c,l] / (∑ l', a[n,c,l'] + ε)) · E[c,l,d] ) · w[c],
      a[n,c,l]    = exp ( (span[n,:] · E[c,l,:]) / 16 ) · clip01 (mask[n,c,l]),

  E the gathered embeddings and w the softmax of the channel weights — the same host operations of the same
  arguments in both programs. The kernel forms the 2048 scores of a row with one matrix product and multiplies
  them by the word of 1/16, then works channel by channel on 256 columns at a time and stores each channel's
  [512, 256] tile into its columns of the [512, 2048] output block; the reference divides the scores by the word of
  16 and works on the whole [16384, 8, 256] array. On the extended reals the two scalings agree for every value
  (Proof/Spec.lean), and everything else is a matter of layout: the kernel's [16384, 2048] array and the
  reference's [16384, 8, 256] array are two reshapes of one array, and so are their last reshapes to
  [128, 128, 2048]. No step needs the inputs to be finite.

  Proof/Tile.lean reads one channel's tile at an entry; Proof/Block.lean joins the eight stores of a grid point into
  one function of the block index; Proof/Arrays.lean reads the arrays the host prepares for the kernel;
  Proof/KernelValue.lean goes from blocks to the whole array and through the host's last reshape;
  Proof/RefValue.lean reads the reference's operations at an index.
-/
import proofs.«163273_j45380624450152_2_alg».proof.Defs
import proofs.«163273_j45380624450152_2_alg».proof.Proof.Gen.Kernel
import proofs.«163273_j45380624450152_2_alg».proof.Proof.Gen.Kernel.Skeleton
import proofs.«163273_j45380624450152_2_alg».proof.Proof.Gen.Kernel.Launch
import proofs.«163273_j45380624450152_2_alg».proof.Proof.Gen.Kernel.Points
import proofs.«163273_j45380624450152_2_alg».proof.Proof.Gen.Kernel.Frame
import proofs.«163273_j45380624450152_2_alg».proof.Proof.Gen.KernelIdeal
import proofs.«163273_j45380624450152_2_alg».proof.Proof.Gen.KernelIdeal.Skeleton
import proofs.«163273_j45380624450152_2_alg».proof.Proof.Gen.KernelIdeal.Launch
import proofs.«163273_j45380624450152_2_alg».proof.Proof.Gen.KernelIdeal.Points
import proofs.«163273_j45380624450152_2_alg».proof.Proof.Gen.KernelIdeal.Frame
import proofs.«163273_j45380624450152_2_alg».proof.Proof.Gen.ReferenceIdeal
import proofs.«163273_j45380624450152_2_alg».proof.Proof.Gen.ReferenceIdeal.Run
import proofs.«163273_j45380624450152_2_alg».proof.Proof.Gen.ReferenceIdeal.Read
import proofs.«163273_j45380624450152_2_alg».proof.Proof.Gen.Pre_finite_inputs
import proofs.«163273_j45380624450152_2_alg».proof.Proof.KernelValue
import proofs.«163273_j45380624450152_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result is the specification array reshaped to [128, 128, 2048]; the reference's result is the
    reshape of its own [16384, 8, 256] array, which is the specification array of the same arguments. -/
theorem algebraic : Cert.algebraic_KernelIdeal_ReferenceIdeal := by
  intro m ρ m' ρ' _ hagree
  refine ⟨fun c => shapeCast Cert.KernelIdeal.S128x128x2048 (Cert.KernelIdeal.KValue.spec m c) Cert.KernelIdeal.KValue.castFinal,
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v47_eq, a0, a1, a2, a3, a4, a5]
  unfold Cert.ReferenceIdeal.Read.val_main_v47
  rw [Cert.ReferenceIdeal.RefValue.ref_result]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
